-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x32 : Shape := ⟨2, ![512, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S32x1 1) : IVec S_ 1 :=
  let main_c_5 : IVec S_ 1 := constantI S_ 1 1#1
  let main_v17 : IVec S_ 1 := (fun x v => Host.reduce IntOp.andi x v reducesTo_S32x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S8192x512 .f32) (main_arg1 : FVec F S512x32 .f32) (main_arg2 : FVec F S32 .f32) (main_arg3 : FVec F S32x1 .f32) (main_arg4 : FVec F S1 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x32 .f32 := Host.absf main_arg1
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x1 .f32 := Host.absf main_arg3
  let main_cst_4 : FVec F S_ .f32 := constant S_ .f32 0x7F800000#32
  let main_v15 : FVec F S32x1 .f32 := broadcastInDim S32x1 ![] bcast_S_S32x1 main_cst_4
  let main_v16 : IVec S32x1 1 := cmpf .olt main_v14 main_v15
  fn_part1 (F := F) main_arg4 main_v13 main_v16
-- ==== Kernel.lean ====
abbrev S8192x512 : Shape := ⟨2, ![8192, 512]⟩
abbrev S512x32 : Shape := ⟨2, ![512, 32]⟩
abbrev S32 : Shape := ⟨1, ![32]⟩
abbrev S32x1 : Shape := ⟨2, ![32, 1]⟩
abbrev S1 : Shape := ⟨1, ![1]⟩
abbrev S8192x32 : Shape := ⟨2, ![8192, 32]⟩
abbrev S1x32 : Shape := ⟨2, ![1, 32]⟩
abbrev S_ : Shape := ⟨0, ![]⟩
abbrev S8192x1 : Shape := ⟨2, ![8192, 1]⟩
abbrev S8192 : Shape := ⟨1, ![8192]⟩
abbrev S1x8192 : Shape := ⟨2, ![1, 8192]⟩
abbrev S8192x8192 : Shape := ⟨2, ![8192, 8192]⟩
abbrev S2048x1 : Shape := ⟨2, ![2048, 1]⟩
abbrev S1x2048 : Shape := ⟨2, ![1, 2048]⟩
abbrev S2048x2048 : Shape := ⟨2, ![2048, 2048]⟩

abbrev nBuf : Space → Nat
  | .hbm => 20
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S512x32, .f32⟩
  | .hbm, ⟨2, _⟩ => ⟨S32, .f32⟩
  | .hbm, ⟨3, _⟩ => ⟨S32x1, .f32⟩
  | .hbm, ⟨4, _⟩ => ⟨S1, .f32⟩
  | .hbm, ⟨5, _⟩ => ⟨S8192x32, .f32⟩
  | .hbm, ⟨6, _⟩ => ⟨S1x32, .f32⟩
  | .hbm, ⟨7, _⟩ => ⟨S8192x32, .f32⟩
  | .hbm, ⟨8, _⟩ => ⟨S8192x32, .f32⟩
  | .hbm, ⟨9, _⟩ => ⟨S_, .f32⟩
  | .hbm, ⟨10, _⟩ => ⟨S8192x32, .f32⟩
  | .hbm, ⟨11, _⟩ => ⟨S8192x32, .f32⟩
  | .hbm, ⟨12, _⟩ => ⟨S8192x1, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192x1, .f32⟩
  | .hbm, ⟨18, _⟩ => ⟨S1x8192, .f32⟩
  | .hbm, ⟨19, _⟩ => ⟨S8192x8192, .f32⟩
  | .local _ .vmem, ⟨0, _⟩ => ⟨S2048x1, .f32⟩
  | .local _ .vmem, ⟨1, _⟩ => ⟨S1x2048, .f32⟩
  | .local _ .vmem, ⟨2, _⟩ => ⟨S1x2048, .f32⟩
  | .local _ .vmem, ⟨3, _⟩ => ⟨S2048x2048, .f32⟩
  | .local _ .vmem, ⟨4, _⟩ => ⟨S2048x2048, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  bcast_S_S8192x32 : S_.BroadcastsInDim S8192x32 (![] : Fin 0 → Fin S8192x32.rank)
  shapeCasts_S8192x1_S8192 : S8192x1.ShapeCasts S8192
  shapeCasts_S1_S_ : S1.ShapeCasts S_
  bcast_S_S8192 : S_.BroadcastsInDim S8192 (![] : Fin 0 → Fin S8192.rank)
  shapeCasts_S8192_S8192x1 : S8192.ShapeCasts S8192x1
  shapeCasts_S8192_S1x8192 : S8192.ShapeCasts S1x8192
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S2048x1_S2048x2048 : S2048x1.Broadcasts S2048x2048
  broadcasts_S1x2048_S2048x2048 : S1x2048.Broadcasts S2048x2048
  inb_S2048x2048_S2048x2048_0_0 : ∀ a, (![0, 0] : Fin 2 → Nat) a + S2048x2048.size a ≤ S2048x2048.size a
  h_S2048x2048 : 0 < S2048x2048.numel
  dot_S8192x512_S512x32_S8192x32_1_0_0_1_n_n_wf : DotDims.WF S8192x512 S512x32 S8192x32 [1] [0] [0] [1] [] []
  dot_S8192x32_S32x1_S8192x1_1_0_0_1_n_n_wf : DotDims.WF S8192x32 S32x1 S8192x1 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S8192x1.size a
  hwx0_0 : ∀ i : grid0.Coords, EltTy.bits .f32 = 32 ∨ (Rect.block (s := S8192x1) S2048x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x8192.size a
  hwx0_1 : ∀ i : grid0.Coords, EltTy.bits .f32 = 32 ∨ (Rect.block (s := S1x8192) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S8192x8192.size a
  hwx0_2 : ∀ i : grid0.Coords, EltTy.bits .f32 = 32 ∨ (Rect.block (s := S8192x8192) S2048x2048.size (cc0_transform_2 i) (hinb0_2 i)).WholeWords (EltTy.packing .f32)

variable [Facts₀]

def dot_S8192x512_S512x32_S8192x32_1_0_0_1_n_n : DotDims S8192x512 S512x32 S8192x32 where
  lhsContracting := [1]
  rhsContracting := [0]
  lhsNonContracting := [0]
  rhsNonContracting := [1]
  lhsBatch := []
  rhsBatch := []
  wf := dot_S8192x512_S512x32_S8192x32_1_0_0_1_n_n_wf
def dot_S8192x32_S32x1_S8192x1_1_0_0_1_n_n : DotDims S8192x32 S32x1 S8192x1 where
  lhsContracting := [1]
  rhsContracting := [0]
  lhsNonContracting := [0]
  rhsNonContracting := [1]
  lhsBatch := []
  rhsBatch := []
  wf := dot_S8192x32_S32x1_S8192x1_1_0_0_1_n_n_wf

abbrev win0_0 : Pipeline.Window sig grid0 :=
  Pipeline.Window.ofSpec (Memref.whole main_v10) S2048x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2048x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x512 : Shape := ⟨2, ![8192, 512]⟩
abbrev S512x32 : Shape := ⟨2, ![512, 32]⟩
abbrev S32 : Shape := ⟨1, ![32]⟩
abbrev S32x1 : Shape := ⟨2, ![32, 1]⟩
abbrev S1 : Shape := ⟨1, ![1]⟩
abbrev S8192x32 : Shape := ⟨2, ![8192, 32]⟩
abbrev S1x32 : Shape := ⟨2, ![1, 32]⟩
abbrev S_ : Shape := ⟨0, ![]⟩
abbrev S8192x1 : Shape := ⟨2, ![8192, 1]⟩
abbrev S8192 : Shape := ⟨1, ![8192]⟩
abbrev S1x8192 : Shape := ⟨2, ![1, 8192]⟩
abbrev S8192x8192 : Shape := ⟨2, ![8192, 8192]⟩

abbrev nBuf : Space → Nat
  | .hbm => 22
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x32, .f32⟩
  | .hbm, ⟨2, _⟩ => ⟨S32, .f32⟩
  | .hbm, ⟨3, _⟩ => ⟨S32x1, .f32⟩
  | .hbm, ⟨4, _⟩ => ⟨S1, .f32⟩
  | .hbm, ⟨5, _⟩ => ⟨S8192x32, .f32⟩
  | .hbm, ⟨6, _⟩ => ⟨S1x32, .f32⟩
  | .hbm, ⟨7, _⟩ => ⟨S8192x32, .f32⟩
  | .hbm, ⟨8, _⟩ => ⟨S8192x32, .f32⟩
  | .hbm, ⟨9, _⟩ => ⟨S_, .f32⟩
  | .hbm, ⟨10, _⟩ => ⟨S8192x32, .f32⟩
  | .hbm, ⟨11, _⟩ => ⟨S8192x32, .f32⟩
  | .hbm, ⟨12, _⟩ => ⟨S8192x1, .f32⟩
  | .hbm, ⟨13, _⟩ => ⟨S8192, .f32⟩
  | .hbm, ⟨14, _⟩ => ⟨S8192x1, .f32⟩
  | .hbm, ⟨15, _⟩ => ⟨S1x8192, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  bcast_S_S8192x32 : S_.BroadcastsInDim S8192x32 (![] : Fin 0 → Fin S8192x32.rank)
  shapeCasts_S8192x1_S8192 : S8192x1.ShapeCasts S8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  shapeCasts_S1_S_ : S1.ShapeCasts S_
  bcast_S_S8192x8192 : S_.BroadcastsInDim S8192x8192 (![] : Fin 0 → Fin S8192x8192.rank)
  dot_S8192x512_S512x32_S8192x32_1_0_0_1_n_n_wf : DotDims.WF S8192x512 S512x32 S8192x32 [1] [0] [0] [1] [] []
  dot_S8192x32_S32x1_S8192x1_1_0_0_1_n_n_wf : DotDims.WF S8192x32 S32x1 S8192x1 [1] [0] [0] [1] [] []

variable [Facts₀]

def dot_S8192x512_S512x32_S8192x32_1_0_0_1_n_n : DotDims S8192x512 S512x32 S8192x32 where
  lhsContracting := [1]
  rhsContracting := [0]
  lhsNonContracting := [0]
  rhsNonContracting := [1]
  lhsBatch := []
  rhsBatch := []
  wf := dot_S8192x512_S512x32_S8192x32_1_0_0_1_n_n_wf
def dot_S8192x32_S32x1_S8192x1_1_0_0_1_n_n : DotDims S8192x32 S32x1 S8192x1 where
  lhsContracting := [1]
  rhsContracting := [0]
  lhsNonContracting := [0]
  rhsNonContracting := [1]
  lhsBatch := []
  rhsBatch := []
  wf := dot_S8192x32_S32x1_S8192x1_1_0_0_1_n_n_wf

class Facts : Prop extends Facts₀ where

variable [Facts]
-- ==== Proof.KernelBlocks.lean ====
/-
  From the region's blocks to the whole table.

  The region runs over a 4 × 4 grid. At the point `(a, b)` it reads rows `2048·a … 2048·a + 2047` of the column
  operand (8192 × 1) and columns `2048·b … 2048·b + 2047` of the row operand (1 × 8192), and writes the
  2048 × 2048 block `(a, b)` of the result, whose entry at `(r, q)` inside the block is the column operand's entry
  `r` plus the row operand's entry `q`. So the block is the restriction of ONE table — the OUTER SUM of the two
  operands, `(r, q) ↦ col r + row q` — to the block's rows and columns; the sixteen blocks tile the 8192 × 8192
  table, so after the run the result array is that outer sum everywhere.
-/
import proofs.«113285_j7275674599529_2_alg».proof.Proof.Gen.KernelIdeal.Value
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

/-- The body's loads and its store start at the corner of their buffers. -/
theorem corner : (![0, 0] : Fin 2 → Nat) = fun _ => 0 := funext fun a => by fin_cases a <;> rfl

/-- The outer sum of a column (8192 × 1) and a row (1 × 8192): the 8192 × 8192 table whose entry at `(r, q)` is the
    column's entry in row `r` plus the row's entry in column `q`. -/
abbrev outerSum (col : S8192x1.Idx → Elt F .f32) (row : S1x8192.Idx → Elt F .f32) : S8192x8192.Idx → Elt F .f32 :=
  fun i => FloatOps.addf (col (ix2 (n0 := 8192) (n1 := 1) (i 0) 0)) (row (ix2 (n0 := 1) (n1 := 8192) 0 (i 1)))

/-- The index maps over the sixteen grid points: the column operand's block moves with the result's block ROW and
    stays in block column 0; the row operand's block stays in block row 0 and moves with the result's block COLUMN;
    the result's block row and block column are among 0 … 3. -/
theorem index_facts : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 3
    ∧ win0_2.index t (1 : Fin 2) ≤ 3 :=
  (by decide +kernel : ∀ t : Fin grid0.N, _)

/-- Every one of the 4 × 4 blocks of the result is some grid point's. -/
theorem index_onto : ∀ (a : Fin 4) (b : Fin 4), ∃ t : Fin cfg0.N, win0_2.index t = ![a.val, b.val] :=
  (by decide +kernel : ∀ (a : Fin 4) (b : Fin 4), ∃ t : Fin grid0.N, win0_2.index t = ![a.val, b.val])

/-- What the body leaves in the result's buffer, over ANY two loaded blocks: entry `(r, q)` is the first block's
    entry `(r, 0)` plus the second's entry `(0, q)`. -/
theorem body_block (x0 : Vec F S2048x1 .f32) (x1 : Vec F S1x2048 .f32) (j : S2048x2048.Idx) :
    out0_2 x0 x1 j = FloatOps.addf (x0 (Value.ix2_0 j)) (x1 (Value.ix2_1 j)) := by
  unfold out0_2
  rw [View.ld_unit_zero (S := S2048x1) corner, View.ld_unit_zero (S := S1x2048) corner]
  exact Value.canon2_eq x0 x1 j

/-- WHAT POINT `t` WRITES BACK is block `t` of the outer sum of the two operand arrays as the region finds them. -/
theorem flushed_eq (c : Dev nD) (t : Fin cfg0.N) :
    (dats m 0 c).flushed 2 t
      = ((cfg0.win 2).blk t).view.read (Elt F) (outerSum (V m c main_v10) (V m c main_v11)) := by
  rw [Value.flushed2]
  obtain ⟨e0, e1, e2, e3, e4, e5⟩ := index_facts t
  funext j
  show out0_2 (iblk m c 0 t) (iblk m c 1 t) j = _
  refine (body_block (iblk m c 0 t) (iblk m c 1 t) j).trans ?_
  show FloatOps.addf (V m c main_v10 (((cfg0.win 0).blk t).view.emb (Value.ix2_0 j)))
        (V m c main_v11 (((cfg0.win 1).blk t).view.emb (Value.ix2_1 j)))
      = FloatOps.addf (V m c main_v10 (ix2 (n0 := 8192) (n1 := 1) ((((cfg0.win 2).blk t).view.emb j) 0) 0))
        (V m c main_v11 (ix2 (n0 := 1) (n1 := 8192) 0 ((((cfg0.win 2).blk t).view.emb j) 1)))
  have h0 : ((cfg0.win 0).blk t).view.emb (Value.ix2_0 j)
      = ix2 (n0 := 8192) (n1 := 1) ((((cfg0.win 2).blk t).view.emb j) 0) 0 := by
    funext a; apply Fin.ext
    match a with
    | ⟨0, _⟩ => show win0_0.index t (0 : Fin 2) * 2048 + 1 * (j 0).val = win0_2.index t (0 : Fin 2) * 2048 + 1 * (j 0).val; omega
    | ⟨1, _⟩ => show win0_0.index t (1 : Fin 2) * 1 + 1 * 0 = 0; omega
  have h1 : ((cfg0.win 1).blk t).view.emb (Value.ix2_1 j)
      = ix2 (n0 := 1) (n1 := 8192) 0 ((((cfg0.win 2).blk t).view.emb j) 1) := by
    funext a; apply Fin.ext
    match a with
    | ⟨0, _⟩ => show win0_1.index t (0 : Fin 2) * 1 + 1 * 0 = 0; omega
    | ⟨1, _⟩ => show win0_1.index t (1 : Fin 2) * 2048 + 1 * (j 1).val = win0_2.index t (1 : Fin 2) * 2048 + 1 * (j 1).val; omega
  rw [h0, h1]

/-- An index of the table is in point `t`'s block iff each coordinate is in the block's range on its axis. -/
theorem mem_block (t : Fin cfg0.N) (i : S8192x8192.Idx) :
    i ∈ ((cfg0.win 2).blk t).view.set
      ↔ ∀ a : Fin 2, win0_2.index t a * S2048x2048.size a ≤ (i a).val
          ∧ (i a).val < win0_2.index t a * S2048x2048.size a + S2048x2048.size a := by
  show i ∈ ((View.whole main_v12).slice (win0_2.rect t)).set ↔ _
  rw [View.set_slice_whole, Rect.mem_set_unit]
  exact Iff.rfl

/-- The sixteen blocks cover the table: the pair `(r, q)` lies in block `(r / 2048, q / 2048)`. -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := index_onto ⟨(i 0).val / 2048, by omega⟩ ⟨(i 1).val / 2048, by omega⟩
  have q0 : win0_2.index t (0 : Fin 2) = (i 0).val / 2048 := congrFun ht 0
  have q1 : win0_2.index t (1 : Fin 2) = (i 1).val / 2048 := congrFun ht 1
  refine ⟨t, flush0_2 t, ?_⟩
  rw [mem_block]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 2048 ≤ (i 1).val ∧ (i 1).val < win0_2.index t (1 : Fin 2) * 2048 + 2048; omega

/-- THE RESULT ARRAY after the run is the outer sum of the two operand arrays. -/
theorem final (c : Dev nD) :
    (dats m 0 c).arrAt 2 cfg0.N = outerSum (V m c main_v10) (V m c main_v11) :=
  (dats m 0 c).arrAt_eq_of_cover 2 (outerSum (V m c main_v10) (V m c main_v11)) (fun t _ => flushed_eq m c t) covered

end Cert.KernelIdeal.Blocks

end
-- ==== Proof.KernelOperands.lean ====
/-
  The two arrays the kernel's region reads, as the host operations before it leave them.

  Before the region the program computes every site's score `p` (the same two-layer projection the
  reference computes, never opened here), then
    • the COLUMN operand, 8192 × 1: `p r + b` at row `r` — the offset `b` is added here, once per site;
    • the ROW operand, 1 × 8192: `p q` at column `q`.
  Both are re-layings of a vector of 8192 entries into a table with one axis of extent one, so the entry at
  `(r, 0)` (resp. `(0, q)`) is the vector's entry `r` (resp. `q`).
-/
import proofs.«113285_j7275674599529_2_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.Operands

open Cert.KernelIdeal Cert.KernelIdeal.Gen
open Idealize.ShloMosaic Idealize.ShloMosaic.TcCoe Idealize.SL.Sem Idealize.ShloMosaic.StableHlo Idealize.ShloMosaic.ValueIdx

variable {F : FTy → Type} [FloatOps F]

/-- Every site's score: the features times the first weights plus the first bias, clamped below at zero,
    times the second weights, the 8192 × 1 product re-laid as a vector. -/
def score (x0 : (⟨S8192x512, .f32⟩ : BufTy).Contents (Elt F)) (x1 : (⟨S512x32, .f32⟩ : BufTy).Contents (Elt F))
    (x2 : (⟨S32, .f32⟩ : BufTy).Contents (Elt F)) (x3 : (⟨S32x1, .f32⟩ : BufTy).Contents (Elt F)) :
    (⟨S8192, .f32⟩ : BufTy).Contents (Elt F) :=
  shapeCast _ (Host.dotGeneral dot_S8192x32_S32x1_S8192x1_1_0_0_1_n_n none
    (maximumf (addf (Host.dotGeneral dot_S8192x512_S512x32_S8192x32_1_0_0_1_n_n none x0 x1)
        (broadcastInDim S8192x32 ![0, 1] bcast_S1x32_S8192x32_0_1 (broadcastInDim S1x32 ![1] bcast_S32_S1x32_1 x2)))
      (broadcastInDim S8192x32 ![] bcast_S_S8192x32 (constant S_ .f32 0x00000000#32))) x3) shapeCasts_S8192x1_S8192

/-- The offset: the one entry of the last argument, read as a scalar. -/
def offset (x4 : (⟨S1, .f32⟩ : BufTy).Contents (Elt F)) : (⟨S_, .f32⟩ : BufTy).Contents (Elt F) :=
  shapeCast _ x4 shapeCasts_S1_S_

variable (m : (ℓ : Loc nD τ sig) → Buf (Elt F) ℓ)

/-- The column operand as the region finds it: the scores plus the offset spread over the sites, re-laid 8192 × 1. -/
theorem column_operand (c : Dev nD) :
    (V m c main_v10 : S8192x1.Idx → Elt F .f32)
      = shapeCast _ (addf (score (m ((c : Thread nD τ).loc main_arg0)) (m ((c : Thread nD τ).loc main_arg1))
            (m ((c : Thread nD τ).loc main_arg2)) (m ((c : Thread nD τ).loc main_arg3)))
          (broadcastInDim S8192 ![] bcast_S_S8192 (offset (m ((c : Thread nD τ).loc main_arg4))))) shapeCasts_S8192_S8192x1 := by
  dsimp only [V]
  simp only [hostOps0, hostOps0_1, hostOps0_2, List.flatten_cons, List.flatten_nil, List.append_nil, List.cons_append,
    List.nil_append]
  after_results
  rfl

/-- The row operand as the region finds it: the scores re-laid 1 × 8192. -/
theorem row_operand (c : Dev nD) :
    (V m c main_v11 : S1x8192.Idx → Elt F .f32)
      = shapeCast _ (score (m ((c : Thread nD τ).loc main_arg0)) (m ((c : Thread nD τ).loc main_arg1))
            (m ((c : Thread nD τ).loc main_arg2)) (m ((c : Thread nD τ).loc main_arg3))) shapeCasts_S8192_S1x8192 := by
  dsimp only [V]
  simp only [hostOps0, hostOps0_1, hostOps0_2, List.flatten_cons, List.flatten_nil, List.append_nil, List.cons_append,
    List.nil_append]
  after_results
  rfl

/-! ## The operands read at an index -/

/-- A vector of 8192 entries re-laid as an 8192 × 1 column: the entry in row `r` is the vector's entry `r`
    (the row-major position of `(r, 0)` among 8192 × 1 is `r`). -/
theorem column_entry {α : Type} (v : S8192.Idx → α) (j : S8192x1.Idx) :
    shapeCast S8192x1 v shapeCasts_S8192_S8192x1 j = v (ix1 (n := 8192) (j 0)) := by
  refine shapeCast_apply v shapeCasts_S8192_S8192x1 j (ix1 (n := 8192) (j 0)) ?_
  rw [Shape.rowMajor_val_one, Shape.rowMajor_val_two]
  have h1 : (j 1).val < 1 := (j 1).isLt
  show (j 0).val = (j 0).val * 1 + (j 1).val
  omega

/-- A vector of 8192 entries re-laid as a 1 × 8192 row: the entry in column `q` is the vector's entry `q`
    (the row-major position of `(0, q)` among 1 × 8192 is `q`). -/
theorem row_entry {α : Type} (v : S8192.Idx → α) (j : S1x8192.Idx) :
    shapeCast S1x8192 v shapeCasts_S8192_S1x8192 j = v (ix1 (n := 8192) (j 1)) := by
  refine shapeCast_apply v shapeCasts_S8192_S1x8192 j (ix1 (n := 8192) (j 1)) ?_
  rw [Shape.rowMajor_val_one, Shape.rowMajor_val_two]
  have h0 : (j 0).val < 1 := (j 0).isLt
  show (j 1).val = (j 0).val * 8192 + (j 1).val
  omega

/-- A scalar spread over the sites is that scalar at every site. -/
theorem spread_entry {α : Type} (y : S_.Idx → α) (i : S8192.Idx) :
    broadcastInDim S8192 ![] bcast_S_S8192 y i = y ix0 :=
  broadcastInDim_apply _ bcast_S_S8192 y i ix0 (fun a => a.elim0)

/-- The column operand at row `r`: the site's score plus the offset. -/
theorem column_operand_apply (c : Dev nD) (j : S8192x1.Idx) :
    (V m c main_v10 : S8192x1.Idx → Elt F .f32) j
      = FloatOps.addf (score (m ((c : Thread nD τ).loc main_arg0)) (m ((c : Thread nD τ).loc main_arg1))
            (m ((c : Thread nD τ).loc main_arg2)) (m ((c : Thread nD τ).loc main_arg3)) (ix1 (n := 8192) (j 0)))
          (offset (m ((c : Thread nD τ).loc main_arg4)) ix0) := by
  rw [column_operand m c, column_entry]
  exact congrArg (FloatOps.addf _) (spread_entry _ _)

/-- The row operand at column `q`: the site's score. -/
theorem row_operand_apply (c : Dev nD) (j : S1x8192.Idx) :
    (V m c main_v11 : S1x8192.Idx → Elt F .f32) j
      = score (m ((c : Thread nD τ).loc main_arg0)) (m ((c : Thread nD τ).loc main_arg1))
            (m ((c : Thread nD τ).loc main_arg2)) (m ((c : Thread nD τ).loc main_arg3)) (ix1 (n := 8192) (j 1)) := by
  rw [row_operand m c, row_entry]

end Cert.KernelIdeal.Operands

end
-- ==== Proof.PairGaps.lean ====
/-
  The function both programs compute, and the one law between their two arrangements of it.

  There are 8192 sites. Each site `r` has a score `p r` (an extended real), and there is one offset `b`.
  The result is the table over ORDERED PAIRS of sites whose entry at `(r, q)` is `p r + p q + b`.
  One program adds the offset last, `(p r + p q) + b`; the other adds it to the row's score before the
  column's score arrives, `(p r + b) + p q`. Addition of extended reals is commutative and associative
  (with `⊤ + ⊥ = ⊥` it is still a commutative monoid), so the two agree at every pair with no finiteness
  assumption on `p` or `b`.
-/
import Idealize.ShloMosaic.PureOps.Ideal
import Idealize.ShloMosaic.Lib.ValueIdx

noncomputable section

namespace Cert.PairGaps

open Idealize.ShloMosaic Idealize.ShloMosaic.ValueIdx

/-- The sites: a vector of 8192 entries. -/
abbrev Sites : Shape := ⟨1, ![8192]⟩

/-- The ordered pairs of sites: an 8192 × 8192 table. -/
abbrev Pairs : Shape := ⟨2, ![8192, 8192]⟩

/-- The site a pair's first coordinate names (the table's row). -/
abbrev rowSite (i : Pairs.Idx) : Sites.Idx := ix1 (n := 8192) (i 0)

/-- The site a pair's second coordinate names (the table's column). -/
abbrev colSite (i : Pairs.Idx) : Sites.Idx := ix1 (n := 8192) (i 1)

/-- The table of gaps: at the pair `(r, q)` the sum of the two sites' scores and the offset. -/
def gaps (p : Sites.Idx → EReal) (b : EReal) : Pairs.Idx → EReal :=
  fun i => p (rowSite i) + p (colSite i) + b

theorem gaps_apply (p : Sites.Idx → EReal) (b : EReal) (i : Pairs.Idx) :
    gaps p b i = p (rowSite i) + p (colSite i) + b := rfl

/-- Adding the offset to the row's score first gives the same entry: `(x + b) + y = (x + y) + b` in any
    commutative additive monoid, the extended reals among them. -/
theorem gaps_offset_first (p : Sites.Idx → EReal) (b : EReal) (i : Pairs.Idx) :
    (p (rowSite i) + b) + p (colSite i) = gaps p b i := by
  rw [gaps_apply]
  exact add_right_comm _ _ _

end Cert.PairGaps

end
-- ==== Proof.KernelGaps.lean ====
/-
  The kernel's result is the table of gaps.

  After the run the result array is the outer sum of the two operand arrays: entry `(r, q)` is the column operand's
  entry `r` plus the row operand's entry `q`. The column operand at `r` is `p r + b` (site `r`'s score plus the offset)
  and the row operand at `q` is `p q`, so the entry is `(p r + b) + p q`, which is the gap `p r + p q + b`: addition
  of extended reals is commutative and associative, whatever the scores and the offset are (infinite ones included).
-/
import proofs.«113285_j7275674599529_2_alg».proof.Proof.KernelBlocks
import proofs.«113285_j7275674599529_2_alg».proof.Proof.KernelOperands
import proofs.«113285_j7275674599529_2_alg».proof.Proof.PairGaps

noncomputable section

namespace Cert.KernelIdeal.KerValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The table of gaps of the scores and the offset the program's arguments determine on core `c`. -/
abbrev result (c : Dev nD) : S8192x8192.Idx → EReal :=
  Cert.PairGaps.gaps
    (Operands.score (F := Ideal) (m ((c : Thread nD τ).loc main_arg0)) (m ((c : Thread nD τ).loc main_arg1))
      (m ((c : Thread nD τ).loc main_arg2)) (m ((c : Thread nD τ).loc main_arg3)))
    (Operands.offset (F := Ideal) (m ((c : Thread nD τ).loc main_arg4)) ix0)

/-- The outer sum of the two operand arrays is the table of gaps: at `(r, q)`, `(p r + b) + p q = p r + p q + b`. -/
theorem outer_is_gaps (c : Dev nD) :
    Blocks.outerSum (F := Ideal) (V m c main_v10) (V m c main_v11) = result m c := by
  funext i
  have hcol := Operands.column_operand_apply m c (ix2 (n0 := 8192) (n1 := 1) (i 0) 0)
  have hrow := Operands.row_operand_apply m c (ix2 (n0 := 1) (n1 := 8192) 0 (i 1))
  exact (congrArg₂ (fun a b : EReal => a + b) hcol hrow).trans (Cert.PairGaps.gaps_offset_first _ _ i)

/-- The kernel's run, re-posted: every weakly fair execution terminates with the result array at the table of gaps
    and the five arguments unchanged. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono
    (fun r h c => ⟨(h c).1.trans ((Blocks.final m c).trans (outer_is_gaps m c)), (h c).2⟩)
    (Value.run_blocks m ρ)

end Cert.KernelIdeal.KerValue

end
-- ==== Proof.ReferenceGaps.lean ====
/-
  The reference's result is the table of gaps.

  The reference computes every site's score `p` (a vector of 8192 entries: a two-layer projection of the
  site's features, which this module never opens), spreads it along the rows and along the columns of the
  8192 × 8192 table, adds the two tables, and adds the offset spread over the whole table last. Read at a
  pair `(r, q)` that is `(p r + p q) + b`: each spreading reads its operand at the one coordinate it keeps.
-/
import proofs.«113285_j7275674599529_2_alg».proof.Proof.Gen.ReferenceIdeal.Read
import proofs.«113285_j7275674599529_2_alg».proof.Proof.PairGaps

noncomputable section

namespace Cert.ReferenceIdeal.RefValue

open Cert.ReferenceIdeal Cert.ReferenceIdeal.Read Idealize.ShloMosaic Idealize.ShloMosaic.ValueIdx

/-- The row spreading followed by the table spreading reads the score vector at the pair's row site. -/
theorem row_site (i : S8192x8192.Idx) : idx_main_v7 (idx_main_v9 i) = Cert.PairGaps.rowSite i :=
  funext fun a => Fin.ext (by match a with | ⟨0, _⟩ => rfl)

/-- The column spreading followed by the table spreading reads the score vector at the pair's column site. -/
theorem col_site (i : S8192x8192.Idx) : idx_main_v8 (idx_main_v10 i) = Cert.PairGaps.colSite i :=
  funext fun a => Fin.ext (by match a with | ⟨0, _⟩ => rfl)

/-- The reference's result, as a function of its five arguments, is the table of gaps of the score vector
    (its sixth stage) and of the offset (the one entry of the fifth argument, read as a scalar). -/
theorem result_is_gaps (x0 : (⟨S8192x512, .f32⟩ : BufTy).Contents (Elt Ideal)) (x1 : (⟨S512x32, .f32⟩ : BufTy).Contents (Elt Ideal))
    (x2 : (⟨S32, .f32⟩ : BufTy).Contents (Elt Ideal)) (x3 : (⟨S32x1, .f32⟩ : BufTy).Contents (Elt Ideal))
    (x4 : (⟨S1, .f32⟩ : BufTy).Contents (Elt Ideal)) :
    val_main_v14 (F := Ideal) x0 x1 x2 x3 x4
      = Cert.PairGaps.gaps (val_main_v6 (F := Ideal) x0 x1 x2 x3) (val_main_v12 (F := Ideal) x4 ix0) := by
  funext i
  rw [val_main_v14_apply, val_main_v11_apply, val_main_v9_apply, val_main_v7_apply, val_main_v10_apply,
    val_main_v8_apply, val_main_v13_apply, row_site, col_site, Cert.PairGaps.gaps_apply]
  rfl

end Cert.ReferenceIdeal.RefValue

end
-- ==== Proof.lean ====
/-
  Pairwise gaps between 8192 sites: `gaps[r, q] = p r + p q + b`, where `p r` is site `r`'s score — its 512 features
  through a 32-wide layer clamped below at zero, then through a one-wide layer — and `b` is one offset.

  The reference forms the 8192 × 8192 table `p r + p q` and adds the offset over the whole table last. The kernel
  folds the offset into the column operand once per site on the host (`p r + b`), and its region, over a 4 × 4 grid of
  2048 × 2048 blocks, writes the outer sum of that column with the row of scores: `(p r + b) + p q`. The scores are
  computed by the same operations on both sides and are never opened; what joins the two sides is
  `(x + b) + y = (x + y) + b`, true of all extended reals, so the precondition (finite inputs) is not used for the
  values. The idealization rewrote no operation, so that conjunct is trivial; the kernel's two frames are the
  generated ones, and the reference's frame is its run with the result forgotten.
-/
import proofs.«113285_j7275674599529_2_alg».proof.Defs
import proofs.«113285_j7275674599529_2_alg».proof.Proof.Gen.Kernel
import proofs.«113285_j7275674599529_2_alg».proof.Proof.Gen.Kernel.Skeleton
import proofs.«113285_j7275674599529_2_alg».proof.Proof.Gen.Kernel.Launch
import proofs.«113285_j7275674599529_2_alg».proof.Proof.Gen.Kernel.Points
import proofs.«113285_j7275674599529_2_alg».proof.Proof.Gen.Kernel.Frame
import proofs.«113285_j7275674599529_2_alg».proof.Proof.Gen.KernelIdeal
import proofs.«113285_j7275674599529_2_alg».proof.Proof.Gen.KernelIdeal.Skeleton
import proofs.«113285_j7275674599529_2_alg».proof.Proof.Gen.KernelIdeal.Launch
import proofs.«113285_j7275674599529_2_alg».proof.Proof.Gen.KernelIdeal.Points
import proofs.«113285_j7275674599529_2_alg».proof.Proof.Gen.KernelIdeal.Frame
import proofs.«113285_j7275674599529_2_alg».proof.Proof.Gen.ReferenceIdeal
import proofs.«113285_j7275674599529_2_alg».proof.Proof.Gen.KernelIdeal.Value
import proofs.«113285_j7275674599529_2_alg».proof.Proof.Gen.ReferenceIdeal.Run
import proofs.«113285_j7275674599529_2_alg».proof.Proof.Gen.ReferenceIdeal.Read
import proofs.«113285_j7275674599529_2_alg».proof.Proof.Gen.Pre_finite_inputs
import proofs.«113285_j7275674599529_2_alg».proof.Proof.KernelGaps
import proofs.«113285_j7275674599529_2_alg».proof.Proof.ReferenceGaps
import Idealize.ShloMosaic.Adequacy
import Idealize.ShloMosaic.Init

noncomputable section

namespace Cert.Proof

open Idealize.ShloMosaic Idealize.ShloMosaic.TcCoe Idealize.SL.Sem Idealize.ShloMosaic.ValueIdx

/-- Both programs compute the scores by the same operations over the same shapes: the reference's sixth stage is the
    kernel's score vector, as functions of the first four arguments. -/
theorem same_score (x0 : (⟨Cert.ReferenceIdeal.S8192x512, .f32⟩ : BufTy).Contents (Elt Ideal))
    (x1 : (⟨Cert.ReferenceIdeal.S512x32, .f32⟩ : BufTy).Contents (Elt Ideal))
    (x2 : (⟨Cert.ReferenceIdeal.S32, .f32⟩ : BufTy).Contents (Elt Ideal))
    (x3 : (⟨Cert.ReferenceIdeal.S32x1, .f32⟩ : BufTy).Contents (Elt Ideal)) :
    Cert.ReferenceIdeal.Read.val_main_v6 (F := Ideal) x0 x1 x2 x3 = Cert.KernelIdeal.Operands.score (F := Ideal) x0 x1 x2 x3 := rfl

/-- Both programs read the offset the same way: the last argument's one entry as a scalar. -/
theorem same_offset (x4 : (⟨Cert.ReferenceIdeal.S1, .f32⟩ : BufTy).Contents (Elt Ideal)) :
    Cert.ReferenceIdeal.Read.val_main_v12 (F := Ideal) x4 = Cert.KernelIdeal.Operands.offset (F := Ideal) x4 := rfl

theorem frame_kernel : Cert.frame_Kernel := fun m ρ _ => Cert.Kernel.Gen.frame m ρ

theorem frame_kernel_ideal : Cert.frame_KernelIdeal := fun m ρ _ => Cert.KernelIdeal.Gen.frame m ρ

/-- The reference has no region: its frame is its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing: there is no conjunct to prove. -/
theorem preserves : Cert.preserves_Kernel_KernelIdeal := trivial

/-- From memories that agree on the five arguments, both programs end with the table of gaps of the same scores and
    the same offset: the kernel by its blocks and the law `(x + b) + y = (x + y) + b`, the reference stage by stage. -/
theorem algebraic : Cert.algebraic_KernelIdeal_ReferenceIdeal := by
  intro m ρ m' ρ' _ hagree
  refine ⟨fun c => Cert.KernelIdeal.KerValue.result m c, Cert.KernelIdeal.KerValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2,
    Cert.ReferenceIdeal.Read.val_main_v14_eq, Cert.ReferenceIdeal.RefValue.result_is_gaps, same_score, same_offset]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
